-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S2x32000000 : Shape := ⟨2, ![2, 32000000]⟩
abbrev S32000000x1 : Shape := ⟨2, ![32000000, 1]⟩
abbrev S1x1 : Shape := ⟨2, ![1, 1]⟩
abbrev S1000000 : Shape := ⟨1, ![1000000]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S32000000x1 : S_.BroadcastsInDim S32000000x1 (![] : Fin 0 → Fin S32000000x1.rank)
  reducesTo_S32000000x1_S_d0_1 : S32000000x1.ReducesTo [0, 1] S_
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S1000000x2 .f32) (main_arg1 : IVec S2x32000000 32) (main_arg2 : FVec F S32000000x1 .f32) (main_arg3 : FVec F S1x1 .f32) (main_arg4 : IVec S1000000 32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S32000000x1 .f32 := Host.absf main_arg2
  let main_cst_0 : FVec F S_ .f32 := constant S_ .f32 0x7F800000#32
  let main_v5 : FVec F S32000000x1 .f32 := broadcastInDim S32000000x1 ![] bcast_S_S32000000x1 main_cst_0
  let main_v6 : IVec S32000000x1 1 := cmpf .olt main_v4 main_v5
  let main_c_1 : IVec S_ 1 := constantI S_ 1 1#1
  let main_v7 : IVec S_ 1 := (fun x v => Host.reduce IntOp.andi x v reducesTo_S32000000x1_S_d0_1 h_S_) main_v6 main_c_1
  let main_v8 : IVec S_ 1 := andi main_v3 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  main_v13
-- ==== Kernel.lean ====
abbrev S1000000x2 : Shape := ⟨2, ![1000000, 2]⟩
abbrev S2x32000000 : Shape := ⟨2, ![2, 32000000]⟩
abbrev S32000000x1 : Shape := ⟨2, ![32000000, 1]⟩
abbrev S1x1 : Shape := ⟨2, ![1, 1]⟩
abbrev S1000000 : Shape := ⟨1, ![1000000]⟩
abbrev S1x32000000 : Shape := ⟨2, ![1, 32000000]⟩
abbrev S32000000 : Shape := ⟨1, ![32000000]⟩
abbrev S_ : Shape := ⟨0, ![]⟩
abbrev S1000000x1 : Shape := ⟨2, ![1000000, 1]⟩
abbrev S8000x2 : Shape := ⟨2, ![8000, 2]⟩
abbrev S8000x1 : Shape := ⟨2, ![8000, 1]⟩

abbrev nBuf : Space → Nat
  | .hbm => 12
  | .vmem => 6
  | .smem => 0
  | _ => 0

abbrev bufTy : (tb : Table) → Fin (tcTables nBuf tb) → BufTy
  | .hbm, ⟨0, _⟩ => ⟨S1000000x2, .f32⟩
  | .hbm, ⟨1, _⟩ => ⟨S2x32000000, .i32⟩
  | .hbm, ⟨2, _⟩ => ⟨S32000000x1, .f32⟩
  | .hbm, ⟨3, _⟩ => ⟨S1x1, .f32⟩
  | .hbm, ⟨4, _⟩ => ⟨S1000000, .i32⟩
  | .hbm, ⟨5, _⟩ => ⟨S1x32000000, .i32⟩
  | .hbm, ⟨6, _⟩ => ⟨S32000000, .i32⟩
  | .hbm, ⟨7, _⟩ => ⟨S_, .f32⟩
  | .hbm, ⟨8, _⟩ => ⟨S1000000x1, .f32⟩
  | .hbm, ⟨9, _⟩ => ⟨S32000000x1, .i32⟩
  | .hbm, ⟨10, _⟩ => ⟨S1000000x1, .f32⟩
  | .hbm, ⟨11, _⟩ => ⟨S1000000x2, .f32⟩
  | .local _ .vmem, ⟨0, _⟩ => ⟨S8000x2, .f32⟩
  | .local _ .vmem, ⟨1, _⟩ => ⟨S8000x2, .f32⟩
  | .local _ .vmem, ⟨2, _⟩ => ⟨S8000x1, .f32⟩
  | .local _ .vmem, ⟨3, _⟩ => ⟨S8000x1, .f32⟩
  | .local _ .vmem, ⟨4, _⟩ => ⟨S8000x2, .f32⟩
  | .local _ .vmem, ⟨5, _⟩ => ⟨S8000x2, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x32000000_S1x32000000_1_0 : S2x32000000.Slices ![1, 0] S1x32000000
  shapeCasts_S1x32000000_S32000000 : S1x32000000.ShapeCasts S32000000
  bcast_S_S1000000x1 : S_.BroadcastsInDim S1000000x1 (![] : Fin 0 → Fin S1000000x1.rank)
  bcast_S32000000_S32000000x1_0 : S32000000.BroadcastsInDim S32000000x1 (![0] : Fin 1 → Fin S32000000x1.rank)
  inb_S8000x2_S8000x1_0_0 : ∀ a, (![0, 0] : Fin 2 → Nat) a + S8000x1.size a ≤ S8000x2.size a
  h_S8000x1 : 0 < S8000x1.numel
  inb_S8000x1_S8000x1_0_0 : ∀ a, (![0, 0] : Fin 2 → Nat) a + S8000x1.size a ≤ S8000x1.size a
  shapeCasts_S8000x1_S8000x1 : S8000x1.ShapeCasts S8000x1
  inb_S8000x2_S8000x1_0_1 : ∀ a, (![0, 1] : Fin 2 → Nat) a + S8000x1.size a ≤ S8000x2.size a
  scatter_S1000000x1_S32000000x1_S32000000x1_1_0_0_1_wf : ScatterDims.WF S1000000x1 S32000000x1 S32000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S1000000x2.size a
  hwx0_0 : ∀ i : grid0.Coords, EltTy.bits .f32 = 32 ∨ (Rect.block (s := S1000000x2) S8000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1000000x1.size a
  hwx0_1 : ∀ i : grid0.Coords, EltTy.bits .f32 = 32 ∨ (Rect.block (s := S1000000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x2.size a ≤ S1000000x2.size a
  hwx0_2 : ∀ i : grid0.Coords, EltTy.bits .f32 = 32 ∨ (Rect.block (s := S1000000x2) S8000x2.size (cc0_transform_2 i) (hinb0_2 i)).WholeWords (EltTy.packing .f32)

variable [Facts₀]

def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf

abbrev win0_0 : Pipeline.Window sig grid0 :=
  Pipeline.Window.ofSpec (Memref.whole main_arg0) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x2 : Shape := ⟨2, ![1000000, 2]⟩
abbrev S2x32000000 : Shape := ⟨2, ![2, 32000000]⟩
abbrev S32000000x1 : Shape := ⟨2, ![32000000, 1]⟩
abbrev S1x1 : Shape := ⟨2, ![1, 1]⟩
abbrev S1000000 : Shape := ⟨1, ![1000000]⟩
abbrev S1000000x1 : Shape := ⟨2, ![1000000, 1]⟩
abbrev S1x32000000 : Shape := ⟨2, ![1, 32000000]⟩
abbrev S32000000 : Shape := ⟨1, ![32000000]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S2x32000000, .i32⟩
  | .hbm, ⟨2, _⟩ => ⟨S32000000x1, .f32⟩
  | .hbm, ⟨3, _⟩ => ⟨S1x1, .f32⟩
  | .hbm, ⟨4, _⟩ => ⟨S1000000, .i32⟩
  | .hbm, ⟨5, _⟩ => ⟨S1000000x1, .f32⟩
  | .hbm, ⟨6, _⟩ => ⟨S1x32000000, .i32⟩
  | .hbm, ⟨7, _⟩ => ⟨S32000000, .i32⟩
  | .hbm, ⟨8, _⟩ => ⟨S_, .f32⟩
  | .hbm, ⟨9, _⟩ => ⟨S1000000x1, .f32⟩
  | .hbm, ⟨10, _⟩ => ⟨S32000000x1, .i32⟩
  | .hbm, ⟨11, _⟩ => ⟨S1000000x1, .f32⟩
  | .hbm, ⟨12, _⟩ => ⟨S1000000x1, .f32⟩
  | .hbm, ⟨13, _⟩ => ⟨S1000000x2, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  slices_S1000000x2_S1000000x1_0_0 : S1000000x2.Slices ![0, 0] S1000000x1
  slices_S2x32000000_S1x32000000_1_0 : S2x32000000.Slices ![1, 0] S1x32000000
  shapeCasts_S1x32000000_S32000000 : S1x32000000.ShapeCasts S32000000
  bcast_S_S1000000x1 : S_.BroadcastsInDim S1000000x1 (![] : Fin 0 → Fin S1000000x1.rank)
  bcast_S32000000_S32000000x1_0 : S32000000.BroadcastsInDim S32000000x1 (![0] : Fin 1 → Fin S32000000x1.rank)
  concatenates_S1000000x1_S1000000x1_S1000000x2_d1 : Shape.Concatenates [S1000000x1, S1000000x1] S1000000x2 1
  scatter_S1000000x1_S32000000x1_S32000000x1_1_0_0_1_wf : ScatterDims.WF S1000000x1 S32000000x1 S32000000x1 [1] [0] [0] 1

variable [Facts₀]

def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf

class Facts : Prop extends Facts₀ where

variable [Facts]
-- ==== Proof.Spec.lean ====
/-
  The function both programs compute, stated once over the literal array shapes.

  Each vertex carries two features; write b for the first one. Each vertex also receives s, the sum of the
  attributes of the edges that point to it. The result again has two columns per vertex:
      column 0 :  b
      column 1 :  b · s
  `vertexUpdate x s` is that array as a function of the [1000000, 2] feature array `x` and the [1000000, 1] column
  of sums `s`, index by index. No law of arithmetic is needed to join the two programs: each forms exactly the
  one product b · s, so the statement holds for any float values, the extended reals among them, and never asks
  the inputs to be finite.
-/
import Idealize.ShloMosaic.PureOps
import Idealize.ShloMosaic.Lib.ValueIdx

noncomputable section

namespace Cert.VertexUpdate

open Idealize.ShloMosaic Idealize.ShloMosaic.ValueIdx

variable {F : FTy → Type} [FloatOps F]

/-- Two features per vertex. -/
abbrev Pairs : Shape := ⟨2, ![1000000, 2]⟩
/-- One number per vertex, kept as a column. -/
abbrev Column : Shape := ⟨2, ![1000000, 1]⟩

/-- Row `r` of the result: its first entry is `x[r, 0]`, its second `x[r, 0] · s[r, 0]`. -/
def vertexUpdate (x : Pairs.Idx → Elt F .f32) (s : Column.Idx → Elt F .f32) : Pairs.Idx → Elt F .f32 :=
  fun i =>
    if (i 1).val = 0 then x (ix2 (n0 := 1000000) (n1 := 2) (i 0) 0)
    else FloatOps.mulf (x (ix2 (n0 := 1000000) (n1 := 2) (i 0) 0)) (s (ix2 (n0 := 1000000) (n1 := 1) (i 0) 0))

end Cert.VertexUpdate

end
-- ==== Proof.Block.lean ====
/-
  One grid point of the kernel. The body sees 8000 rows at a time: a block `x0` of the feature array
  ([8000, 2]) and a block `x1` of the column of sums ([8000, 1]). It reads column 0 of `x0`, call it b, forms
  b · x1, and writes the output block by two column stores: b into column 0, the product into column 1. The two
  stores tile the block, so the block the body leaves is, row by row,
      (x0[r, 0],  x0[r, 0] · x1[r, 0]).
-/
import proofs.«137183_j91096256348959_2_alg».proof.Proof.Gen.KernelIdeal.Frame
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

variable {F : FTy → Type} [FloatOps F]

/-- What one grid point leaves in its output block, row by row. -/
def blockOut (x0 : Vec F S8000x2 .f32) (x1 : Vec F S8000x1 .f32) : Vec F S8000x2 .f32 :=
  fun y =>
    if (y 1).val = 0 then x0 (ix2 (n0 := 8000) (n1 := 2) (y 0) 0)
    else FloatOps.mulf (x0 (ix2 (n0 := 8000) (n1 := 2) (y 0) 0)) (x1 (ix2 (n0 := 8000) (n1 := 1) (y 0) 0))

/-- The value stored into column 1 is the entrywise product of the two loaded columns (the reshape between them
    keeps the shape, so it changes nothing). -/
theorem product_apply (v0 v1 : Vec F S8000x1 .f32) (j : S8000x1.Idx) :
    k0_pay1 v0 v1 j = FloatOps.mulf (v0 j) (v1 j) := by
  unfold k0_pay1
  show FloatOps.mulf (v0 j) (shapeCast S8000x1 v1 shapeCasts_S8000x1_S8000x1 j) = _
  rw [shapeCast_self]

/-- The body's two column stores together leave `blockOut`: each store's value is `blockOut` on the column it
    covers, and the two columns cover the block. -/
theorem out_eq (x0 : Vec F S8000x2 .f32) (x1 : Vec F S8000x1 .f32) : out0_2 x0 x1 = blockOut x0 x1 := by
  funext y
  unfold out0_2
  refine View.canon_apply_of_pieces (blockOut x0 x1) _ ?_ y (cover0_2 _ _ y)
  intro p hp x
  simp only [List.mem_cons, List.mem_singleton, List.not_mem_nil, or_false] at hp
  rcases hp with rfl | rfl
  · -- column 1: the product
    have hx1 : (x 1).val < 1 := (x 1).isLt
    have e0 : r0_0.idx x = ix2 (n0 := 8000) (n1 := 2) (r0_2.emb x 0) 0 :=
      funext fun a => Fin.ext (by
        match a with
        | ⟨0, _⟩ => rfl
        | ⟨1, _⟩ => show 0 + 1 * (x 1).val = 0; omega)
    have e1 : r0_1.idx x = ix2 (n0 := 8000) (n1 := 1) (r0_2.emb x 0) 0 :=
      funext fun a => Fin.ext (by
        match a with
        | ⟨0, _⟩ => rfl
        | ⟨1, _⟩ => show 0 + 1 * (x 1).val = 0; omega)
    have hc : ¬ ((r0_2.emb x 1).val = 0) := by
      show ¬ (1 + 1 * (x 1).val = 0); omega
    refine (product_apply _ _ x).trans ?_
    show FloatOps.mulf (x0 (r0_0.idx x)) (x1 (r0_1.idx x)) = blockOut x0 x1 (r0_2.emb x)
    rw [e0, e1]
    unfold blockOut
    rw [if_neg hc]
  · -- column 0: the copy
    have hx1 : (x 1).val < 1 := (x 1).isLt
    have e0 : r0_0.idx x = ix2 (n0 := 8000) (n1 := 2) (r0_0.emb x 0) 0 :=
      funext fun a => Fin.ext (by
        match a with
        | ⟨0, _⟩ => rfl
        | ⟨1, _⟩ => show 0 + 1 * (x 1).val = 0; omega)
    have hc : (r0_0.emb x 1).val = 0 := by
      show 0 + 1 * (x 1).val = 0; omega
    show x0 (r0_0.idx x) = blockOut x0 x1 (r0_0.emb x)
    rw [e0]
    unfold blockOut
    rw [if_pos hc]

end Cert.KernelIdeal.Block

end
-- ==== Proof.Array.lean ====
/-
  From blocks to the whole array. The grid has 125 points; point `t` works on rows 8000·t … 8000·t + 7999 of
  all three arrays (the feature array, the column of sums, the output), over all their columns. So the block
  that point `t` writes back is rows 8000·t … of `vertexUpdate x s`, where `x` is the feature array and `s` the
  column of sums as the region finds them; row `r` of the output lies in the block of point `r / 8000`, so the
  125 blocks cover the output and the array ends as `vertexUpdate x s` everywhere.

  The column of sums is computed on the host before the region: starting from zeros, every edge adds its
  attribute into the row its destination vertex names (row 1 of the edge list). `segSums` is that scatter-sum as a
  function of the edge list and the edge attributes; it is never opened here, since the reference forms the
  same sum from the same operands.
-/
import proofs.«137183_j91096256348959_2_alg».proof.Proof.Gen.KernelIdeal.Value
import proofs.«137183_j91096256348959_2_alg».proof.Proof.Spec
import proofs.«137183_j91096256348959_2_alg».proof.Proof.Block
import Idealize.ShloMosaic.Lib.StableHlo.Run

noncomputable section

namespace Cert.KernelIdeal.Whole

open Cert.KernelIdeal Cert.KernelIdeal.Gen Cert.KernelIdeal.Block Cert.VertexUpdate
open Idealize.ShloMosaic Idealize.ShloMosaic.TcCoe Idealize.ShloMosaic.ValueIdx Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The column of sums the region finds -/

/-- Per vertex, the sum of the attributes `u` of the edges whose destination (row 1 of `e`) is that vertex: a
    scatter-add into a column of zeros. -/
def segSums (e : (⟨S2x32000000, .i32⟩ : BufTy).Contents (Elt F)) (u : (⟨S32000000x1, .f32⟩ : BufTy).Contents (Elt F)) :
    (⟨S1000000x1, .f32⟩ : BufTy).Contents (Elt F) :=
  Host.scatterAdd scatter_S1000000x1_S32000000x1_S32000000x1_1_0_0_1
    (broadcastInDim S1000000x1 ![] bcast_S_S1000000x1 (constant S_ .f32 0x00000000#32))
    (broadcastInDim S32000000x1 ![0] bcast_S32000000_S32000000x1_0
      (shapeCast _ (extractStridedSlice S1x32000000 ![1, 0] e slices_S2x32000000_S1x32000000_1_0) shapeCasts_S1x32000000_S32000000))
    u

/-- The kernel's second operand, as the region finds it, is that column of sums of the launch arguments. -/
theorem V_sums (c : Dev nD) :
    (V m c main_v4 : (⟨S1000000x1, .f32⟩ : BufTy).Contents (Elt F))
      = segSums (m ((c : Thread nD τ).loc main_arg1)) (m ((c : Thread nD τ).loc main_arg2)) := by
  unfold segSums
  dsimp only [Gen.V, Gen.hostOps0]
  after_results
  rfl

/-! ## Where the windows sit -/

/-- The three index maps, decided over the 125 points: point `t` takes block row `t` and block column 0 of every
    array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## What a point writes back -/

/-- Point `t` writes back rows 8000·t … 8000·t + 7999 of `vertexUpdate` of the two arrays the region finds. -/
theorem flushed_eq (c : Dev nD) (t : Fin cfg0.N) :
    (dats m 0 c).flushed 2 t
      = ((cfg0.win 2).blk t).view.read (Elt F) (vertexUpdate (V m c main_arg0) (V m c main_v4)) := by
  rw [Value.flushed2]
  obtain ⟨a0, a1, b0, b1, o0, o1⟩ := idx_facts t
  funext j
  show out0_2 (iblk m c 0 t) (iblk m c 1 t) j
    = vertexUpdate (V m c main_arg0) (V m c main_v4) (((cfg0.win 2).blk t).view.emb j)
  refine (congrFun (out_eq (iblk m c 0 t) (iblk m c 1 t)) j).trans ?_
  have hj0 : (j 0).val < 8000 := (j 0).isLt
  -- the row of the output this entry lands on, and the entries of the two input blocks it is made from
  have hcol : (((cfg0.win 2).blk t).view.emb j 1).val = (j 1).val := by
    show win0_2.index t (1 : Fin 2) * 2 + 1 * (j 1).val = (j 1).val; omega
  have hx : iblk m c 0 t (ix2 (n0 := 8000) (n1 := 2) (j 0) 0)
      = V m c main_arg0 (ix2 (n0 := 1000000) (n1 := 2) (((cfg0.win 2).blk t).view.emb j 0) 0) := by
    show V m c main_arg0 (((cfg0.win 0).blk t).view.emb (ix2 (n0 := 8000) (n1 := 2) (j 0) 0)) = _
    refine congrArg (V m c main_arg0) (funext fun a => Fin.ext ?_)
    match a with
    | ⟨0, _⟩ =>
      show win0_0.index t (0 : Fin 2) * 8000 + 1 * (j 0).val = win0_2.index t (0 : Fin 2) * 8000 + 1 * (j 0).val
      omega
    | ⟨1, _⟩ => show win0_0.index t (1 : Fin 2) * 2 + 1 * 0 = 0; omega
  have hs : iblk m c 1 t (ix2 (n0 := 8000) (n1 := 1) (j 0) 0)
      = V m c main_v4 (ix2 (n0 := 1000000) (n1 := 1) (((cfg0.win 2).blk t).view.emb j 0) 0) := by
    show V m c main_v4 (((cfg0.win 1).blk t).view.emb (ix2 (n0 := 8000) (n1 := 1) (j 0) 0)) = _
    refine congrArg (V m c main_v4) (funext fun a => Fin.ext ?_)
    match a with
    | ⟨0, _⟩ =>
      show win0_1.index t (0 : Fin 2) * 8000 + 1 * (j 0).val = win0_2.index t (0 : Fin 2) * 8000 + 1 * (j 0).val
      omega
    | ⟨1, _⟩ => show win0_1.index t (1 : Fin 2) * 1 + 1 * 0 = 0; omega
  unfold blockOut vertexUpdate
  by_cases h : (j 1).val = 0
  · rw [if_pos h, if_pos (hcol.trans h), hx]
  · rw [if_neg h, if_neg (fun h' => h (hcol.symm.trans h')), hx, hs]

/-! ## The blocks cover the output -/

/-- An index of the output is in point `t`'s block iff each coordinate is in the block's range on its axis. -/
theorem mem_blk (t : Fin cfg0.N) (i : S1000000x2.Idx) :
    i ∈ ((cfg0.win 2).blk t).view.set ↔ ∀ a : Fin 2, win0_2.index t a * S8000x2.size a ≤ (i a).val
      ∧ (i a).val < win0_2.index t a * S8000x2.size a + S8000x2.size a := by
  show i ∈ ((View.whole main_v5).slice (win0_2.rect t)).set ↔ _
  rw [View.set_slice_whole, Rect.mem_set_unit]
  exact Iff.rfl

/-- Row `r` of the output is written by point `r / 8000`. -/
theorem cover (i : S1000000x2.Idx) :
    ∃ t : Fin cfg0.N, (cfg0.win 2).flush t = true ∧ i ∈ ((cfg0.win 2).blk t).view.set := by
  have hi0 : (i 0).val < 1000000 := (i 0).isLt
  have hi1 : (i 1).val < 2 := (i 1).isLt
  obtain ⟨t, ht⟩ : ∃ t : Fin cfg0.N, t.val = (i 0).val / 8000 :=
    ⟨⟨(i 0).val / 8000, by show (i 0).val / 8000 < grid0.N; rw [N_0]; omega⟩, rfl⟩
  obtain ⟨a0, a1, b0, b1, o0, o1⟩ := idx_facts t
  refine ⟨t, flush0_2 t, ?_⟩
  rw [mem_blk]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 2 ≤ (i 1).val ∧ (i 1).val < win0_2.index t (1 : Fin 2) * 2 + 2
    omega

/-! ## The output array, and the run -/

/-- After the run the output array is `vertexUpdate` of the feature array and of the column of sums of the edge
    attributes, all as launched. -/
theorem final (c : Dev nD) :
    (dats m 0 c).arrAt 2 cfg0.N
      = vertexUpdate (m ((c : Thread nD τ).loc main_arg0))
          (segSums (m ((c : Thread nD τ).loc main_arg1)) (m ((c : Thread nD τ).loc main_arg2))) := by
  have h := (dats m 0 c).arrAt_eq_of_cover 2 (vertexUpdate (V m c main_arg0) (V m c main_v4))
    (fun t _ => flushed_eq m c t) cover
  rw [V_main_arg0, V_sums] at h
  exact h

/-- Every weakly fair execution of the kernel's program terminates with the result array at `vertexUpdate` of the
    launch arguments and the arguments unchanged. -/
theorem run : θ_run defs (onTc (τ := τ) (main (F := F))) ⟨m, fun _ => 0, ρ⟩ fun r => ∀ c : Dev nD,
      r.2.mem ((c : Thread nD τ).loc main_v5)
        = vertexUpdate (m ((c : Thread nD τ).loc main_arg0))
            (segSums (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.Reference.lean ====
/-
  The reference, read at an index. It slices column 0 of the feature array off as b, forms the same column of
  sums s, multiplies b · s, and joins the two [1000000, 1] columns b and b · s side by side. An entry of the
  joined array in column 0 comes from the first piece and one in column 1 from the second, each at the same row:
  that is `vertexUpdate` of the feature array and the column of sums.
-/
import proofs.«137183_j91096256348959_2_alg».proof.Proof.Gen.ReferenceIdeal.Read
import proofs.«137183_j91096256348959_2_alg».proof.Proof.Spec
import Idealize.ShloMosaic.Lib.Pipeline.Value
import Idealize.ShloMosaic.Lib.ValueIdx

noncomputable section

namespace Cert.ReferenceIdeal.Whole

open Cert.ReferenceIdeal Cert.ReferenceIdeal.Gen Cert.ReferenceIdeal.Read Cert.VertexUpdate
open Idealize.ShloMosaic Idealize.ShloMosaic.ValueIdx

variable {F : FTy → Type} [FloatOps F]

/-- Column 0 of the feature array, read at row `r`. -/
theorem first_feature (x : (⟨S1000000x2, .f32⟩ : BufTy).Contents (Elt F)) (r : Fin 1000000) :
    val_main_v0 (F := F) x (ix2 (n0 := 1000000) (n1 := 1) r 0) = x (ix2 (n0 := 1000000) (n1 := 2) r 0) := by
  rw [val_main_v0_apply]
  refine congrArg x (funext fun a => Fin.ext ?_)
  match a with
  | ⟨0, _⟩ => rfl
  | ⟨1, _⟩ => rfl

/-- The reference's result is `vertexUpdate` of the feature array and of its column of sums. -/
theorem result_eq (x : (⟨S1000000x2, .f32⟩ : BufTy).Contents (Elt F)) (e : (⟨S2x32000000, .i32⟩ : BufTy).Contents (Elt F))
    (u : (⟨S32000000x1, .f32⟩ : BufTy).Contents (Elt F)) :
    val_main_v7 (F := F) x e u = vertexUpdate x (val_main_v5 (F := F) e u) := by
  funext i
  have hi1 : (i 1).val < 2 := (i 1).isLt
  unfold val_main_v7 vertexUpdate
  by_cases h : (i 1).val = 0
  · -- column 0: the first piece, b, at the same row
    rw [if_pos h]
    refine (concatenate_pair_apply_left (1 : Fin S1000000x2.rank) (val_main_v0 (F := F) x) (val_main_v6 (F := F) x e u)
      concatenates_S1000000x1_S1000000x1_S1000000x2_d1 i rfl (ix2 (n0 := 1000000) (n1 := 1) (i 0) 0) ?_).trans ?_
    · intro b
      match b with
      | ⟨0, _⟩ => rfl
      | ⟨1, _⟩ => show (0 : Nat) = (i 1).val; omega
    · exact first_feature x (i 0)
  · -- column 1: the second piece, b · s, at the same row
    rw [if_neg h]
    refine (concatenate_pair_apply_right (1 : Fin S1000000x2.rank) (val_main_v0 (F := F) x) (val_main_v6 (F := F) x e u)
      concatenates_S1000000x1_S1000000x1_S1000000x2_d1 i rfl rfl (ix2 (n0 := 1000000) (n1 := 1) (i 0) 0) ?_ ?_).trans ?_
    · intro b hb
      match b with
      | ⟨0, _⟩ => rfl
      | ⟨1, _⟩ => exact absurd rfl hb
    · show (0 : Nat) + 1 = (i 1).val; omega
    · exact congrArg₂ FloatOps.mulf (first_feature x (i 0)) rfl

end Cert.ReferenceIdeal.Whole

end
-- ==== Proof.lean ====
/-
  A vertex update of a message-passing layer, kernel against reference, over the extended reals.

  Inputs: two features per vertex (b, the first, is the one used), a list of 32,000,000 edges given by their
  end vertices, and one attribute per edge. Both programs first form s, the per-vertex sum of the attributes of
  the edges that point to the vertex (one scatter-add into zeros on the host, from the same operands), and then
  return, per vertex, the pair (b, b · s).
    * The kernel walks the 1,000,000 vertices in 125 blocks of 8000 rows; at each block it stores b into column 0
      and b · s into column 1 of the output block (Proof/Block.lean), and the blocks tile the output
      (Proof/Array.lean).
    * The reference multiplies the whole columns and joins b and b · s side by side (Proof/Reference.lean).
  Both arrays are `vertexUpdate x s` (Proof/Spec.lean) index by index: the same single product on each side, so
  no finiteness of the inputs is used. The two programs spell the scatter-add with their own copies of the same
  shapes and dimension numbers; the two spellings are one term.

  The three frames are the generated ones (the reference's frame is its generated run with the result dropped);
  the idealization rewrote nothing, so there is nothing to preserve.
-/
import proofs.«137183_j91096256348959_2_alg».proof.Defs
import proofs.«137183_j91096256348959_2_alg».proof.Proof.Gen.Kernel
import proofs.«137183_j91096256348959_2_alg».proof.Proof.Gen.Kernel.Frame
import proofs.«137183_j91096256348959_2_alg».proof.Proof.Gen.KernelIdeal
import proofs.«137183_j91096256348959_2_alg».proof.Proof.Gen.KernelIdeal.Frame
import proofs.«137183_j91096256348959_2_alg».proof.Proof.Gen.KernelIdeal.Value
import proofs.«137183_j91096256348959_2_alg».proof.Proof.Gen.ReferenceIdeal
import proofs.«137183_j91096256348959_2_alg».proof.Proof.Gen.ReferenceIdeal.Run
import proofs.«137183_j91096256348959_2_alg».proof.Proof.Gen.ReferenceIdeal.Read
import proofs.«137183_j91096256348959_2_alg».proof.Proof.Gen.Pre_finite_inputs
import proofs.«137183_j91096256348959_2_alg».proof.Proof.Spec
import proofs.«137183_j91096256348959_2_alg».proof.Proof.Block
import proofs.«137183_j91096256348959_2_alg».proof.Proof.Array
import proofs.«137183_j91096256348959_2_alg».proof.Proof.Reference
import Idealize.ShloMosaic.Adequacy
import Idealize.ShloMosaic.Init

noncomputable section

namespace Cert.Proof

open Idealize.ShloMosaic Idealize.ShloMosaic.TcCoe Idealize.SL.Sem

/-- The kernel's and the reference's column of sums are one term: the same scatter-add into zeros, along the same
    axis, of the same edge list and edge attributes. -/
theorem sums_eq (e : (⟨Cert.KernelIdeal.S2x32000000, .i32⟩ : BufTy).Contents (Elt Ideal))
    (u : (⟨Cert.KernelIdeal.S32000000x1, .f32⟩ : BufTy).Contents (Elt Ideal)) :
    Cert.KernelIdeal.Whole.segSums (F := Ideal) e u = Cert.ReferenceIdeal.Read.val_main_v5 (F := Ideal) e u := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the result array at `vertexUpdate` of the
    feature array and of the column of sums. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, Cert.ReferenceIdeal.Read.val_main_v7_eq,
    Cert.ReferenceIdeal.Whole.result_eq, ← sums_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
